-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4x4096x512 : Shape := ⟨3, ![4, 4096, 512]⟩
abbrev S512x512 : Shape := ⟨2, ![512, 512]⟩
abbrev S512 : Shape := ⟨1, ![512]⟩
abbrev S1x4096x512 : Shape := ⟨3, ![1, 4096, 512]⟩
abbrev S4096x512 : Shape := ⟨2, ![4096, 512]⟩
abbrev S1x512 : Shape := ⟨2, ![1, 512]⟩
abbrev S1x256x512 : Shape := ⟨3, ![1, 256, 512]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S4x4096x512, .f32⟩
  | .local _ .vmem, ⟨0, _⟩ => ⟨S1x4096x512, .f32⟩
  | .local _ .vmem, ⟨1, _⟩ => ⟨S512x512, .bf16⟩
  | .local _ .vmem, ⟨2, _⟩ => ⟨S512, .f32⟩
  | .local _ .vmem, ⟨3, _⟩ => ⟨S512x512, .bf16⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S1x4096x512, .f32⟩
  | .local _ .vmem, ⟨8, _⟩ => ⟨S4096x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

class Facts₀ : Prop where
  transposes_S512x512_S512x512_1_0 : S512x512.Transposes [1, 0] S512x512
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  shapeCasts_S4096x512_S1x4096x512 : S4096x512.ShapeCasts S1x4096x512
  h_S1x256x512 : 0 < S1x256x512.numel
  shapeCasts_S1x256x512_S256x512 : S1x256x512.ShapeCasts S256x512
  broadcasts_S1x512_S256x512 : S1x512.Broadcasts S256x512
  reduces_S256x4096_S256 : S256x4096.Reduces [1] S256
  shapeCasts_S256_S256x1 : S256.ShapeCasts S256x1
  broadcasts_S256x1_S256x4096 : S256x1.Broadcasts S256x4096
  dot_S4096x512_S512x512_S4096x512_1_0_0_1_n_n_wf : DotDims.WF S4096x512 S512x512 S4096x512 [1] [0] [0] [1] [] []
  dot_S256x512_S512x512_S256x512_1_0_0_1_n_n_wf : DotDims.WF S256x512 S512x512 S256x512 [1] [0] [0] [1] [] []
  dot_S256x512_S4096x512_S256x4096_1_1_0_0_n_n_wf : DotDims.WF S256x512 S4096x512 S256x4096 [1] [1] [0] [0] [] []
  dot_S256x4096_S256x512_S4096x512_0_0_1_1_n_n_wf : DotDims.WF S256x4096 S256x512 S4096x512 [0] [0] [1] [1] [] []
  hrank0 : 0 < grid0.rank
  k0_mult1_dvd : ∀ i : grid0.Coords, 256 ∣ (k0_mult1 i).toNat
  k0_off1_inb : ∀ i : grid0.Coords, ∀ a, (k0_off1 i) a + S1x256x512.size a ≤ S1x4096x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x512.size a
  hwx0_0 : ∀ i : grid0.Coords, EltTy.bits .f32 = 32 ∨ (Rect.block (s := S4x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096x512.size a ≤ S4x4096x512.size a
  hwx0_7 : ∀ i : grid0.Coords, EltTy.bits .f32 = 32 ∨ (Rect.block (s := S4x4096x512) S1x4096x512.size (cc0_transform_7 i) (hinb0_7 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S256x512_S4096x512_0_0_1_1_n_n : DotDims S256x4096 S256x512 S4096x512 where
  lhsContracting := [0]
  rhsContracting := [0]
  lhsNonContracting := [1]
  rhsNonContracting := [1]
  lhsBatch := []
  rhsBatch := []
  wf := dot_S256x4096_S256x512_S4096x512_0_0_1_1_n_n_wf

abbrev win0_0 : Pipeline.Window sig grid0 :=
  Pipeline.Window.ofSpec (Memref.whole main_arg0) S1x4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S1x1x512 : Shape := ⟨3, ![1, 1, 512]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S4x4096x512, .f32⟩
  | .hbm, ⟨8, _⟩ => ⟨S1x1x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S1x1x512, .f32⟩
  | .hbm, ⟨13, _⟩ => ⟨S4x4096x512, .f32⟩
  | .hbm, ⟨14, _⟩ => ⟨S4x4096x512, .f32⟩
  | .hbm, ⟨15, _⟩ => ⟨S4x4096x512, .f32⟩
  | .hbm, ⟨16, _⟩ => ⟨S1x1x512, .f32⟩
  | .hbm, ⟨17, _⟩ => ⟨S4x4096x512, .f32⟩
  | .hbm, ⟨18, _⟩ => ⟨S4x4096x512, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.Spec.lean ====
/-
  The function both programs compute, over the extended reals: attention whose softmax normalises over
  the QUERY axis.

  For a batch `b` the three linear layers give rows `Q n`, `K n`, `V n` (`n` one of 4096 positions, 512
  features each): `lin` of row `n` of the input.  A key row `k` scores every query row `q` by the inner
  product `K k · Q q`; the scores of ONE key row are shifted by their maximum over the queries,
  exponentiated and divided by their sum over the queries (`attnRow`): the weight of key `k` at query `q`
  depends on the key row `k` alone (and on all the queries).  The result at `(q, d)` is the sum over the key
  rows of that weight times `V k d`.

  Because the weight of a key row does not depend on the other key rows, the sum over the 4096 key rows
  splits into 16 consecutive tiles of 256 rows (`tileOut`), added one after the other (`accOut`); the laws
  at the end say that the running sum starts at the first tile, grows by one tile per step and ends at the
  whole sum — associativity and commutativity of the sum only, valid on all of the extended reals.
-/
import Idealize.ShloMosaic.PureOps.Ideal
import Idealize.ShloMosaic.Lib.ValueIdx
import proofs.«121356_j10720238370834_2_alg».proof.Proof.LibSumDigits

noncomputable section

namespace Cert.Spec

open Idealize.ShloMosaic Idealize.ShloMosaic.ValueIdx

/-! ## One row -/

/-- A linear layer at one input row: `(∑ d, xr d * wT d e) + β e`. -/
def lin (xr : Fin 512 → EReal) (wT : Fin 512 → Fin 512 → EReal) (β : Fin 512 → EReal) (e : Fin 512) : EReal :=
  (∑ d : Fin 512, xr d * wT d e) + β e

/-- The score of a key row against query row `q`: their inner product. -/
def scoreRow (kr : Fin 512 → EReal) (Q : Fin 4096 → Fin 512 → EReal) (q : Fin 4096) : EReal :=
  ∑ e : Fin 512, kr e * Q q e

/-- The largest score of a key row over all the queries (from `-∞`). -/
def maxRow (kr : Fin 512 → EReal) (Q : Fin 4096 → Fin 512 → EReal) : EReal :=
  (Finset.univ : Finset (Fin 4096)).fold max ⊥ (scoreRow kr Q)

/-- The shifted score exponentiated. -/
def expRow (kr : Fin 512 → EReal) (Q : Fin 4096 → Fin 512 → EReal) (q : Fin 4096) : EReal :=
  Ideal.exp (scoreRow kr Q q - maxRow kr Q)

/-- The normaliser of a key row: the sum over the queries. -/
def denRow (kr : Fin 512 → EReal) (Q : Fin 4096 → Fin 512 → EReal) : EReal :=
  ∑ q : Fin 4096, expRow kr Q q

/-- The weight of a key row at query `q`: softmax over the queries. -/
def attnRow (kr : Fin 512 → EReal) (Q : Fin 4096 → Fin 512 → EReal) (q : Fin 4096) : EReal :=
  Ideal.div (expRow kr Q q) (denRow kr Q)

/-! ## The whole arrays -/

abbrev Arr3 := (⟨3, ![4, 4096, 512]⟩ : Shape).Idx → EReal
abbrev Mat := (⟨2, ![512, 512]⟩ : Shape).Idx → EReal
abbrev Vec1 := (⟨1, ![512]⟩ : Shape).Idx → EReal

/-- Row `n` of batch `b` of the input. -/
def rowOf (x : Arr3) (b : Fin 4) (n : Fin 4096) : Fin 512 → EReal := fun d => x (ix3 b n d)
/-- A weight matrix `[out, in]` read transposed. -/
def wT (w : Mat) : Fin 512 → Fin 512 → EReal := fun d e => w (ix2 e d)
/-- A bias vector by its coordinate. -/
def vecOf (β : Vec1) : Fin 512 → EReal := fun e => β (ix1 e)

section
variable (x : Arr3) (wq : Mat) (bq : Vec1) (wk : Mat) (bk : Vec1) (wv : Mat) (bv : Vec1)

/-- The query rows of batch `b`. -/
def Qf (b : Fin 4) : Fin 4096 → Fin 512 → EReal := fun n => lin (rowOf x b n) (wT wq) (vecOf bq)
/-- Key row `k` of batch `b`. -/
def Kf (b : Fin 4) (k : Fin 4096) : Fin 512 → EReal := lin (rowOf x b k) (wT wk) (vecOf bk)
/-- Value row `k` of batch `b`. -/
def Vf (b : Fin 4) (k : Fin 4096) : Fin 512 → EReal := lin (rowOf x b k) (wT wv) (vecOf bv)

/-- One key row's term of the result at `(q, d)`. -/
def term (b : Fin 4) (q : Fin 4096) (d : Fin 512) (k : Fin 4096) : EReal :=
  attnRow (Kf x wk bk b k) (Qf x wq bq b) q * Vf x wv bv b k d

/-- The result at `(b, q, d)`. -/
def out (b : Fin 4) (q : Fin 4096) (d : Fin 512) : EReal :=
  ∑ k : Fin 4096, term x wq bq wk bk wv bv b q d k

/-- The result array. -/
def G : Arr3 := fun i => out x wq bq wk bk wv bv (i 0) (i 1) (i 2)

/-! ## Sixteen tiles of 256 key rows -/

/-- Row `i` of tile `j`. -/
def row (j : Fin 16) (i : Fin 256) : Fin 4096 := ⟨j.val * 256 + i.val, SumDigits.digits_lt j i⟩

/-- The key rows of tile `j` summed. -/
def tileOut (b : Fin 4) (j : Fin 16) (q : Fin 4096) (d : Fin 512) : EReal :=
  ∑ i : Fin 256, term x wq bq wk bk wv bv b q d (row j i)

/-- Tiles `0 … n` summed. -/
def accOut (b : Fin 4) (n : ℕ) (q : Fin 4096) (d : Fin 512) : EReal :=
  ∑ j ∈ Finset.range (n + 1), if h : j < 16 then tileOut x wq bq wk bk wv bv b ⟨j, h⟩ q d else 0

theorem accOut_zero (b : Fin 4) (q : Fin 4096) (d : Fin 512) :
    accOut x wq bq wk bk wv bv b 0 q d = tileOut x wq bq wk bk wv bv b 0 q d := by
  unfold accOut
  rw [Finset.sum_range_one, dif_pos (by decide : 0 < 16)]
  rfl

theorem accOut_succ (b : Fin 4) (n : ℕ) (h : n + 1 < 16) (q : Fin 4096) (d : Fin 512) :
    accOut x wq bq wk bk wv bv b (n + 1) q d
      = accOut x wq bq wk bk wv bv b n q d + tileOut x wq bq wk bk wv bv b ⟨n + 1, h⟩ q d := by
  unfold accOut
  rw [Finset.sum_range_succ _ (n + 1), dif_pos h]

/-- All sixteen tiles are the whole sum over the key rows. -/
theorem accOut_last (b : Fin 4) (q : Fin 4096) (d : Fin 512) :
    accOut x wq bq wk bk wv bv b 15 q d = out x wq bq wk bk wv bv b q d := by
  unfold accOut out
  rw [SumDigits.sum_fin_mul (m := 16) (n := 256) (by decide : 16 * 256 = 4096), Finset.sum_range]
  refine Finset.sum_congr rfl fun j _ => ?_
  rw [dif_pos j.isLt]
  rfl

end

end Cert.Spec

end
-- ==== Proof.RefValue.lean ====
/-
  The reference program's result is the specification's array `G`, index by index, over the extended reals.

  Each of the three linear layers is `lin` of an input row; the score array at `(b, q, k)` is the inner product of
  query row `q` and key row `k`, which is `scoreRow` after commuting each product; the reduction with a maximum body
  over the query axis, from `-∞`, is the fold `maxRow`; a further maximum with `-∞` changes nothing; the exponential
  of the shifted score is `expRow`; the sum over the query axis from `0` is `denRow`; the quotient is `attnRow`; and
  the last contraction over the key rows is `out`.  No finiteness is used: only commutativity of the product,
  `max ⊥ y = y` and `0 + y = y`.
-/
import proofs.«121356_j10720238370834_2_alg».proof.Proof.Gen.ReferenceIdeal.Read
import proofs.«121356_j10720238370834_2_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## Two words -/

/-- The f32 word of minus infinity is the bottom of the extended reals. -/
theorem ofBits_neg_inf_f32 : Ideal.ofBits .f32 0xFF800000#32 = (⊥ : EReal) := by
  simp [Ideal.ofBits, Ideal.ieee]

/-! ## The linear layers -/

/-- A linear layer of the program at `(b, n, e)` is `lin` of input row `n` of batch `b`. -/
theorem linear_apply (x : (⟨S4x4096x512, .f32⟩ : BufTy).Contents (Elt Ideal)) (w : (⟨S512x512, .f32⟩ : BufTy).Contents (Elt Ideal))
    (β : (⟨S512, .f32⟩ : BufTy).Contents (Elt Ideal)) (b : Fin 4) (n : Fin 4096) (e : Fin 512) :
    val_main_v3 (F := Ideal) x w β (ix3 b n e) = Spec.lin (Spec.rowOf x b n) (Spec.wT w) (Spec.vecOf β) e := by
  rw [val_main_v3_apply, val_main_v0_apply, val_main_v2_apply, val_main_v1_apply]
  show (∑ k : Fin 512, x (lidx_main_v0 (ix3 b n e) k) * w (ridx_main_v0 (ix3 b n e) k))
      + β (idx_main_v1 (idx_main_v2 (ix3 b n e))) = _
  unfold Spec.lin Spec.rowOf Spec.wT Spec.vecOf
  refine congrArg₂ (· + ·) (Finset.sum_congr rfl fun k _ => ?_) ?_
  · exact congrArg₂ (· * ·)
      (congrArg x (funext fun a => by match a with | ⟨0, _⟩ => rfl | ⟨1, _⟩ => rfl | ⟨2, _⟩ => rfl))
      (congrArg w (funext fun a => by match a with | ⟨0, _⟩ => rfl | ⟨1, _⟩ => rfl))
  · exact congrArg β (funext fun a => by match a with | ⟨0, _⟩ => rfl)

section
variable (x0 : (⟨S4x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))

/-- The query rows. -/
theorem q_apply (b : Fin 4) (n : Fin 4096) (e : Fin 512) :
    val_main_v3 (F := Ideal) x0 x1 x2 (ix3 b n e) = Spec.Qf x0 x1 x2 b n e :=
  linear_apply x0 x1 x2 b n e

/-- The key rows. -/
theorem k_apply (b : Fin 4) (n : Fin 4096) (e : Fin 512) :
    val_main_v7 (F := Ideal) x0 x3 x4 (ix3 b n e) = Spec.Kf x0 x3 x4 b n e :=
  linear_apply x0 x3 x4 b n e

/-- The value rows. -/
theorem v_apply (b : Fin 4) (n : Fin 4096) (e : Fin 512) :
    val_main_v11 (F := Ideal) x0 x5 x6 (ix3 b n e) = Spec.Vf x0 x5 x6 b n e :=
  linear_apply x0 x5 x6 b n e

/-! ## The scores and their maximum over the queries -/

/-- The score array at `(b, q, k)` is key row `k` scored against query row `q`. -/
theorem score_apply (b : Fin 4) (q k : Fin 4096) :
    val_main_v12 (F := Ideal) x0 x1 x2 x3 x4 (ix3 b q k)
      = Spec.scoreRow (Spec.Kf x0 x3 x4 b k) (Spec.Qf x0 x1 x2 b) q := by
  rw [val_main_v12_apply]
  unfold Spec.scoreRow
  refine Finset.sum_congr rfl fun d _ => ?_
  have el : lidx_main_v12 (ix3 b q k) d = ix3 b q d :=
    funext fun a => by match a with | ⟨0, _⟩ => rfl | ⟨1, _⟩ => rfl | ⟨2, _⟩ => rfl
  have er : ridx_main_v12 (ix3 b q k) d = ix3 b k d :=
    funext fun a => by match a with | ⟨0, _⟩ => rfl | ⟨1, _⟩ => rfl | ⟨2, _⟩ => rfl
  rw [el, er, q_apply, k_apply]
  exact mul_comm _ _

/-- The reduced index `(b, k)` with query coordinate `q` put back is `(b, q, k)`. -/
theorem lift_ix (h : S4x4096x4096.Reduces [1] S4x4096) (b : Fin 4) (k : Fin 4096) (q : Fin (S4x4096x4096.size 1)) :
    h.lift (ix2 b k) q = ix3 b (⟨q.val, q.isLt⟩ : Fin 4096) k := by
  funext c; apply Fin.ext
  match c with
  | ⟨0, _⟩ => rfl
  | ⟨1, _⟩ => rfl
  | ⟨2, _⟩ => rfl

/-- The maximum-reduction over the query axis, from minus infinity, at `(b, k)` is the largest score of key row `k`. -/
theorem max_apply (b : Fin 4) (k : Fin 4096) :
    val_main_v13 (F := Ideal) x0 x1 x2 x3 x4 (ix2 b k) = Spec.maxRow (Spec.Kf x0 x3 x4 b k) (Spec.Qf x0 x1 x2 b) := by
  have h : S4x4096x4096.Reduces [1] S4x4096 := by decide
  unfold val_main_v13
  rw [Host.reduce_eq_fold_single (FloatOps.maximumf (F := Ideal) (φ := .f32)) _ _ _ h]
  unfold Spec.maxRow
  have hf : (val_main_v12 (F := Ideal) x0 x1 x2 x3 x4 ∘ h.lift (ix2 b k))
      = Spec.scoreRow (Spec.Kf x0 x3 x4 b k) (Spec.Qf x0 x1 x2 b) := funext fun q => by
    show val_main_v12 (F := Ideal) x0 x1 x2 x3 x4 (h.lift (ix2 b k) q) = _
    rw [lift_ix h b k q]
    exact score_apply x0 x1 x2 x3 x4 b _ k
  rw [hf]
  show (Finset.univ : Finset (Fin 4096)).fold max (Ideal.ofBits .f32 0xFF800000#32) _ = _
  rw [ofBits_neg_inf_f32]

/-- A further maximum with minus infinity leaves it unchanged. -/
theorem max'_apply (b : Fin 4) (k : Fin 4096) :
    val_main_v15 (F := Ideal) x0 x1 x2 x3 x4 (ix2 b k) = Spec.maxRow (Spec.Kf x0 x3 x4 b k) (Spec.Qf x0 x1 x2 b) := by
  rw [val_main_v15_apply, val_main_v14_apply, val_main_cst_0_apply, max_apply]
  show max (Ideal.ofBits .f32 0xFF800000#32) _ = _
  rw [ofBits_neg_inf_f32]
  exact max_eq_right bot_le

/-! ## Exponentials, their sum over the queries, the weights -/

/-- The exponential of the shifted score at `(b, q, k)`. -/
theorem exp_apply (b : Fin 4) (q k : Fin 4096) :
    val_main_v19 (F := Ideal) x0 x1 x2 x3 x4 (ix3 b q k)
      = Spec.expRow (Spec.Kf x0 x3 x4 b k) (Spec.Qf x0 x1 x2 b) q := by
  rw [val_main_v19_apply, val_main_v18_apply, val_main_v17_apply, val_main_v16_apply, score_apply]
  have ei : idx_main_v16 (idx_main_v17 (ix3 b q k)) = ix2 b k :=
    funext fun a => by match a with | ⟨0, _⟩ => rfl | ⟨1, _⟩ => rfl
  rw [ei, max'_apply]
  rfl

/-- The sum of the exponentials over the query axis, from zero, at `(b, k)`. -/
theorem den_apply (b : Fin 4) (k : Fin 4096) :
    val_main_v20 (F := Ideal) x0 x1 x2 x3 x4 (ix2 b k) = Spec.denRow (Spec.Kf x0 x3 x4 b k) (Spec.Qf x0 x1 x2 b) := by
  rw [val_main_v20_apply, val_main_cst_1_apply]
  show Ideal.ofBits .f32 0x00000000#32 + _ = _
  rw [Ideal.ofBits_zero_f32, zero_add]
  unfold Spec.denRow
  refine Finset.sum_congr rfl fun q _ => ?_
  have ei : idx_main_v20 (ix2 b k) q = ix3 b q k :=
    funext fun a => by match a with | ⟨0, _⟩ => rfl | ⟨1, _⟩ => rfl | ⟨2, _⟩ => rfl
  rw [ei, exp_apply]

/-- The weight of key row `k` at query `q`. -/
theorem attn_apply (b : Fin 4) (q k : Fin 4096) :
    val_main_v23 (F := Ideal) x0 x1 x2 x3 x4 (ix3 b q k)
      = Spec.attnRow (Spec.Kf x0 x3 x4 b k) (Spec.Qf x0 x1 x2 b) q := by
  rw [val_main_v23_apply, val_main_v22_apply, val_main_v21_apply, exp_apply]
  have ei : idx_main_v21 (idx_main_v22 (ix3 b q k)) = ix2 b k :=
    funext fun a => by match a with | ⟨0, _⟩ => rfl | ⟨1, _⟩ => rfl
  rw [ei, den_apply]
  rfl

/-! ## The result -/

/-- The result at `(b, q, d)` is the sum over the key rows of weight times value. -/
theorem out_apply (b : Fin 4) (q : Fin 4096) (d : Fin 512) :
    val_main_v24 (F := Ideal) x0 x1 x2 x3 x4 x5 x6 (ix3 b q d) = Spec.out x0 x1 x2 x3 x4 x5 x6 b q d := by
  rw [val_main_v24_apply]
  unfold Spec.out Spec.term
  refine Finset.sum_congr rfl fun k _ => ?_
  have el : lidx_main_v24 (ix3 b q d) k = ix3 b q k :=
    funext fun a => by match a with | ⟨0, _⟩ => rfl | ⟨1, _⟩ => rfl | ⟨2, _⟩ => rfl
  have er : ridx_main_v24 (ix3 b q d) k = ix3 b k d :=
    funext fun a => by match a with | ⟨0, _⟩ => rfl | ⟨1, _⟩ => rfl | ⟨2, _⟩ => rfl
  rw [el, er, attn_apply, v_apply]

end

/-- The reference program's result is the specification's array. -/
theorem ref_eq (x0 : (⟨Cert.ReferenceIdeal.S4x4096x512, .f32⟩ : BufTy).Contents (Elt Ideal)) (x1 : (⟨Cert.ReferenceIdeal.S512x512, .f32⟩ : BufTy).Contents (Elt Ideal)) (x2 : (⟨Cert.ReferenceIdeal.S512, .f32⟩ : BufTy).Contents (Elt Ideal)) (x3 : (⟨Cert.ReferenceIdeal.S512x512, .f32⟩ : BufTy).Contents (Elt Ideal)) (x4 : (⟨Cert.ReferenceIdeal.S512, .f32⟩ : BufTy).Contents (Elt Ideal)) (x5 : (⟨Cert.ReferenceIdeal.S512x512, .f32⟩ : BufTy).Contents (Elt Ideal)) (x6 : (⟨Cert.ReferenceIdeal.S512, .f32⟩ : BufTy).Contents (Elt Ideal)) :
    Cert.ReferenceIdeal.Read.val_main_v24 (F := Ideal) x0 x1 x2 x3 x4 x5 x6 = Cert.Spec.G x0 x1 x2 x3 x4 x5 x6 := by
  funext i
  obtain ⟨b, q, d, rfl⟩ : ∃ b q d, i = ix3 b q d := ⟨i 0, i 1, i 2, eq_ix3 i⟩
  exact out_apply x0 x1 x2 x3 x4 x5 x6 b q d

end Cert.ReferenceIdeal.RefValue

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.Matmuls.lean ====
/-
  The kernel's four matrix products at the ideal values, each read at an output entry as a plain sum over the one
  contracted coordinate.

  A product into the zero splat is the sum, over the contraction index, of the operands' products; the contraction index
  has one axis, so the sum is re-indexed by that axis's coordinate, and the operand indices at an output entry are
  computed coordinate by coordinate from the dimension numbers: the contracted axis carries the summation coordinate,
  the other axis the output's row or column.
-/
import Idealize.ShloMosaic.Lib.ValueIdx
import Idealize.ShloMosaic.PureOps.Ideal.Laws
import proofs.«121356_j10720238370834_2_alg».proof.Proof.Gen.KernelIdeal.Skeleton

noncomputable section

open scoped BigOperators

namespace Cert.KernelIdeal.Payloads

open Cert.KernelIdeal Cert.KernelIdeal.Gen Idealize.ShloMosaic Idealize.ShloMosaic.ValueIdx

theorem matmul_rows4096_lhs0 (j : S4096x512.Idx) (c : dot_S4096x512_S512x512_S4096x512_1_0_0_1_n_n.contr.Idx) :
    (dot_S4096x512_S512x512_S4096x512_1_0_0_1_n_n.lhsIdx j c 0).val = (j 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem matmul_rows4096_lhs1 (j : S4096x512.Idx) (c : dot_S4096x512_S512x512_S4096x512_1_0_0_1_n_n.contr.Idx) :
    (dot_S4096x512_S512x512_S4096x512_1_0_0_1_n_n.lhsIdx j c 1).val = (c ⟨0, by decide⟩).val :=
  dot_S4096x512_S512x512_S4096x512_1_0_0_1_n_n.lhsIdx_val_of_single rfl j c
theorem matmul_rows4096_rhs0 (j : S4096x512.Idx) (c : dot_S4096x512_S512x512_S4096x512_1_0_0_1_n_n.contr.Idx) :
    (dot_S4096x512_S512x512_S4096x512_1_0_0_1_n_n.rhsIdx j c 0).val = (c ⟨0, by decide⟩).val :=
  dot_S4096x512_S512x512_S4096x512_1_0_0_1_n_n.rhsIdx_val_of_single rfl j c
theorem matmul_rows4096_rhs1 (j : S4096x512.Idx) (c : dot_S4096x512_S512x512_S4096x512_1_0_0_1_n_n.contr.Idx) :
    (dot_S4096x512_S512x512_S4096x512_1_0_0_1_n_n.rhsIdx j c 1).val = (j 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- Rows times a matrix, 4096 rows: entry `(q, e)` is `∑ k, x (q, k) * y (k, e)`. -/
theorem matmul_rows4096 (x : FVec Ideal S4096x512 .bf16) (y : FVec Ideal S512x512 .bf16) (q : Fin 4096) (e : Fin 512) :
    matmul dot_S4096x512_S512x512_S4096x512_1_0_0_1_n_n none x y (constant (F := Ideal) S4096x512 .f32 0x00000000#32) (ix2 q e)
      = ∑ k : Fin 512, x (ix2 q k) * y (ix2 k e) := by
  refine (Ideal.matmul_constant_zero_apply dot_S4096x512_S512x512_S4096x512_1_0_0_1_n_n none x y (ix2 q e)).trans ?_
  rw [← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 q e) ((ValueIdx.contrEquiv1 dot_S4096x512_S512x512_S4096x512_1_0_0_1_n_n 512 rfl rfl).symm k) = ix2 q k := funext fun a => Fin.ext (by
    match a with
    | ⟨0, _⟩ => exact matmul_rows4096_lhs0 _ _
    | ⟨1, _⟩ => exact (matmul_rows4096_lhs1 _ _).trans hk)
  have er : dot_S4096x512_S512x512_S4096x512_1_0_0_1_n_n.rhsIdx (ix2 q e) ((ValueIdx.contrEquiv1 dot_S4096x512_S512x512_S4096x512_1_0_0_1_n_n 512 rfl rfl).symm k) = ix2 k e := funext fun a => Fin.ext (by
    match a with
    | ⟨0, _⟩ => exact (matmul_rows4096_rhs0 _ _).trans hk
    | ⟨1, _⟩ => exact matmul_rows4096_rhs1 _ _)
  rw [el, er]

theorem matmul_rows256_lhs0 (j : S256x512.Idx) (c : dot_S256x512_S512x512_S256x512_1_0_0_1_n_n.contr.Idx) :
    (dot_S256x512_S512x512_S256x512_1_0_0_1_n_n.lhsIdx j c 0).val = (j 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem matmul_rows256_lhs1 (j : S256x512.Idx) (c : dot_S256x512_S512x512_S256x512_1_0_0_1_n_n.contr.Idx) :
    (dot_S256x512_S512x512_S256x512_1_0_0_1_n_n.lhsIdx j c 1).val = (c ⟨0, by decide⟩).val :=
  dot_S256x512_S512x512_S256x512_1_0_0_1_n_n.lhsIdx_val_of_single rfl j c
theorem matmul_rows256_rhs0 (j : S256x512.Idx) (c : dot_S256x512_S512x512_S256x512_1_0_0_1_n_n.contr.Idx) :
    (dot_S256x512_S512x512_S256x512_1_0_0_1_n_n.rhsIdx j c 0).val = (c ⟨0, by decide⟩).val :=
  dot_S256x512_S512x512_S256x512_1_0_0_1_n_n.rhsIdx_val_of_single rfl j c
theorem matmul_rows256_rhs1 (j : S256x512.Idx) (c : dot_S256x512_S512x512_S256x512_1_0_0_1_n_n.contr.Idx) :
    (dot_S256x512_S512x512_S256x512_1_0_0_1_n_n.rhsIdx j c 1).val = (j 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- Rows times a matrix, 256 rows: entry `(i, e)` is `∑ k, x (i, k) * y (k, e)`. -/
theorem matmul_rows256 (x : FVec Ideal S256x512 .bf16) (y : FVec Ideal S512x512 .bf16) (i : Fin 256) (e : Fin 512) :
    matmul dot_S256x512_S512x512_S256x512_1_0_0_1_n_n none x y (constant (F := Ideal) S256x512 .f32 0x00000000#32) (ix2 i e)
      = ∑ k : Fin 512, x (ix2 i k) * y (ix2 k e) := by
  refine (Ideal.matmul_constant_zero_apply dot_S256x512_S512x512_S256x512_1_0_0_1_n_n none x y (ix2 i e)).trans ?_
  rw [← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 i e) ((ValueIdx.contrEquiv1 dot_S256x512_S512x512_S256x512_1_0_0_1_n_n 512 rfl rfl).symm k) = ix2 i k := funext fun a => Fin.ext (by
    match a with
    | ⟨0, _⟩ => exact matmul_rows256_lhs0 _ _
    | ⟨1, _⟩ => exact (matmul_rows256_lhs1 _ _).trans hk)
  have er : dot_S256x512_S512x512_S256x512_1_0_0_1_n_n.rhsIdx (ix2 i e) ((ValueIdx.contrEquiv1 dot_S256x512_S512x512_S256x512_1_0_0_1_n_n 512 rfl rfl).symm k) = ix2 k e := funext fun a => Fin.ext (by
    match a with
    | ⟨0, _⟩ => exact (matmul_rows256_rhs0 _ _).trans hk
    | ⟨1, _⟩ => exact matmul_rows256_rhs1 _ _)
  rw [el, er]

theorem matmul_scores_lhs0 (j : S256x4096.Idx) (c : dot_S256x512_S4096x512_S256x4096_1_1_0_0_n_n.contr.Idx) :
    (dot_S256x512_S4096x512_S256x4096_1_1_0_0_n_n.lhsIdx j c 0).val = (j 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem matmul_scores_lhs1 (j : S256x4096.Idx) (c : dot_S256x512_S4096x512_S256x4096_1_1_0_0_n_n.contr.Idx) :
    (dot_S256x512_S4096x512_S256x4096_1_1_0_0_n_n.lhsIdx j c 1).val = (c ⟨0, by decide⟩).val :=
  dot_S256x512_S4096x512_S256x4096_1_1_0_0_n_n.lhsIdx_val_of_single rfl j c
theorem matmul_scores_rhs0 (j : S256x4096.Idx) (c : dot_S256x512_S4096x512_S256x4096_1_1_0_0_n_n.contr.Idx) :
    (dot_S256x512_S4096x512_S256x4096_1_1_0_0_n_n.rhsIdx j c 0).val = (j 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem matmul_scores_rhs1 (j : S256x4096.Idx) (c : dot_S256x512_S4096x512_S256x4096_1_1_0_0_n_n.contr.Idx) :
    (dot_S256x512_S4096x512_S256x4096_1_1_0_0_n_n.rhsIdx j c 1).val = (c ⟨0, by decide⟩).val :=
  dot_S256x512_S4096x512_S256x4096_1_1_0_0_n_n.rhsIdx_val_of_single rfl j c

/-- Rows against rows (both operands contract their feature axis): entry `(i, q)` is `∑ k, x (i, k) * y (q, k)`. -/
theorem matmul_scores (x : FVec Ideal S256x512 .bf16) (y : FVec Ideal S4096x512 .bf16) (i : Fin 256) (q : Fin 4096) :
    matmul dot_S256x512_S4096x512_S256x4096_1_1_0_0_n_n none x y (constant (F := Ideal) S256x4096 .f32 0x00000000#32) (ix2 i q)
      = ∑ k : Fin 512, x (ix2 i k) * y (ix2 q k) := by
  refine (Ideal.matmul_constant_zero_apply dot_S256x512_S4096x512_S256x4096_1_1_0_0_n_n none x y (ix2 i q)).trans ?_
  rw [← Equiv.sum_comp (ValueIdx.contrEquiv1 dot_S256x512_S4096x512_S256x4096_1_1_0_0_n_n 512 rfl rfl).symm]
  refine Finset.sum_congr rfl fun k _ => ?_
  have hk := ValueIdx.contrEquiv1_symm_val dot_S256x512_S4096x512_S256x4096_1_1_0_0_n_n 512 rfl rfl k
  have el : dot_S256x512_S4096x512_S256x4096_1_1_0_0_n_n.lhsIdx (ix2 i q) ((ValueIdx.contrEquiv1 dot_S256x512_S4096x512_S256x4096_1_1_0_0_n_n 512 rfl rfl).symm k) = ix2 i k := funext fun a => Fin.ext (by
    match a with
    | ⟨0, _⟩ => exact matmul_scores_lhs0 _ _
    | ⟨1, _⟩ => exact (matmul_scores_lhs1 _ _).trans hk)
  have er : dot_S256x512_S4096x512_S256x4096_1_1_0_0_n_n.rhsIdx (ix2 i q) ((ValueIdx.contrEquiv1 dot_S256x512_S4096x512_S256x4096_1_1_0_0_n_n 512 rfl rfl).symm k) = ix2 q k := funext fun a => Fin.ext (by
    match a with
    | ⟨0, _⟩ => exact matmul_scores_rhs0 _ _
    | ⟨1, _⟩ => exact (matmul_scores_rhs1 _ _).trans hk)
  rw [el, er]

theorem matmul_cols_lhs0 (j : S4096x512.Idx) (c : dot_S256x4096_S256x512_S4096x512_0_0_1_1_n_n.contr.Idx) :
    (dot_S256x4096_S256x512_S4096x512_0_0_1_1_n_n.lhsIdx j c 0).val = (c ⟨0, by decide⟩).val :=
  dot_S256x4096_S256x512_S4096x512_0_0_1_1_n_n.lhsIdx_val_of_single rfl j c
theorem matmul_cols_lhs1 (j : S4096x512.Idx) (c : dot_S256x4096_S256x512_S4096x512_0_0_1_1_n_n.contr.Idx) :
    (dot_S256x4096_S256x512_S4096x512_0_0_1_1_n_n.lhsIdx j c 1).val = (j 0).val := by
  unfold DotDims.lhsIdx
  rw [dif_neg (show ¬(1 : Fin S256x4096.rank) ∈ dot_S256x4096_S256x512_S4096x512_0_0_1_1_n_n.lhsBatch by decide), dif_pos (show (1 : Fin S256x4096.rank) ∈ dot_S256x4096_S256x512_S4096x512_0_0_1_1_n_n.lhsNonContracting by decide)]
  rfl
theorem matmul_cols_rhs0 (j : S4096x512.Idx) (c : dot_S256x4096_S256x512_S4096x512_0_0_1_1_n_n.contr.Idx) :
    (dot_S256x4096_S256x512_S4096x512_0_0_1_1_n_n.rhsIdx j c 0).val = (c ⟨0, by decide⟩).val :=
  dot_S256x4096_S256x512_S4096x512_0_0_1_1_n_n.rhsIdx_val_of_single rfl j c
theorem matmul_cols_rhs1 (j : S4096x512.Idx) (c : dot_S256x4096_S256x512_S4096x512_0_0_1_1_n_n.contr.Idx) :
    (dot_S256x4096_S256x512_S4096x512_0_0_1_1_n_n.rhsIdx j c 1).val = (j 1).val := by
  unfold DotDims.rhsIdx
  rw [dif_neg (show ¬(1 : Fin S256x512.rank) ∈ dot_S256x4096_S256x512_S4096x512_0_0_1_1_n_n.rhsBatch by decide), dif_pos (show (1 : Fin S256x512.rank) ∈ dot_S256x4096_S256x512_S4096x512_0_0_1_1_n_n.rhsNonContracting by decide)]
  rfl

/-- Columns against columns (both operands contract their row axis): entry `(q, d)` is `∑ k, x (k, q) * y (k, d)`. -/
theorem matmul_cols (x : FVec Ideal S256x4096 .bf16) (y : FVec Ideal S256x512 .bf16) (q : Fin 4096) (d : Fin 512) :
    matmul dot_S256x4096_S256x512_S4096x512_0_0_1_1_n_n none x y (constant (F := Ideal) S4096x512 .f32 0x00000000#32) (ix2 q d)
      = ∑ k : Fin 256, x (ix2 k q) * y (ix2 k d) := by
  refine (Ideal.matmul_constant_zero_apply dot_S256x4096_S256x512_S4096x512_0_0_1_1_n_n none x y (ix2 q d)).trans ?_
  rw [← Equiv.sum_comp (ValueIdx.contrEquiv1 dot_S256x4096_S256x512_S4096x512_0_0_1_1_n_n 256 rfl rfl).symm]
  refine Finset.sum_congr rfl fun k _ => ?_
  have hk := ValueIdx.contrEquiv1_symm_val dot_S256x4096_S256x512_S4096x512_0_0_1_1_n_n 256 rfl rfl k
  have el : dot_S256x4096_S256x512_S4096x512_0_0_1_1_n_n.lhsIdx (ix2 q d) ((ValueIdx.contrEquiv1 dot_S256x4096_S256x512_S4096x512_0_0_1_1_n_n 256 rfl rfl).symm k) = ix2 k q := funext fun a => Fin.ext (by
    match a with
    | ⟨0, _⟩ => exact (matmul_cols_lhs0 _ _).trans hk
    | ⟨1, _⟩ => exact matmul_cols_lhs1 _ _)
  have er : dot_S256x4096_S256x512_S4096x512_0_0_1_1_n_n.rhsIdx (ix2 q d) ((ValueIdx.contrEquiv1 dot_S256x4096_S256x512_S4096x512_0_0_1_1_n_n 256 rfl rfl).symm k) = ix2 k d := funext fun a => Fin.ext (by
    match a with
    | ⟨0, _⟩ => exact (matmul_cols_rhs0 _ _).trans hk
    | ⟨1, _⟩ => exact matmul_cols_rhs1 _ _)
  rw [el, er]

end Cert.KernelIdeal.Payloads

end
-- ==== Proof.Rows.lean ====
/-
  The two row-wise building blocks of the kernel's tile, at the ideal values and over variable operands.

  The linear layer: the input rows (a `[1, n, 512]` block read as `[n, 512]`) times a `[512, 512]` matrix, plus a bias
  vector laid out as one row and repeated over the rows, is `Spec.lin` of the row at every entry.

  The softmax along the rows of a `[256, 4096]` matrix: each row is shifted by its maximum (taken from `-∞`),
  exponentiated and divided by the sum of the exponentials of that row; the maximum and the sum are vectors `[256]` kept
  as columns `[256, 1]` and repeated along the row.
-/
import Idealize.ShloMosaic.Lib.ValueIdx
import Idealize.ShloMosaic.Lib.ValueLayout
import Idealize.ShloMosaic.PureOps.Ideal.Laws
import proofs.«121356_j10720238370834_2_alg».proof.Proof.Gen.KernelIdeal.Skeleton
import proofs.«121356_j10720238370834_2_alg».proof.Proof.Spec
import proofs.«121356_j10720238370834_2_alg».proof.Proof.LibKeepdims
import proofs.«121356_j10720238370834_2_alg».proof.Proof.Matmuls

noncomputable section

open scoped BigOperators

namespace Cert.KernelIdeal.Payloads

open Cert.KernelIdeal Cert.KernelIdeal.Gen Idealize.ShloMosaic Idealize.ShloMosaic.ValueIdx

/-! ## The linear layer -/

/-- A vector `[512]` laid out as the one row `[1, 512]` and repeated over `n` rows reads, at `(p, e)`, its entry `e`. -/
theorem bias_apply {n : ℕ} (β : FVec Ideal S512 .f32) (hc : S512.ShapeCasts S1x512)
    (hb : S1x512.Broadcasts ⟨2, ![n, 512]⟩) (p : Fin n) (e : Fin 512) :
    broadcastTo ⟨2, ![n, 512]⟩ (shapeCast S1x512 β hc) hb (ix2 p e) = β (ix1 e) :=
  (broadcastTo_1b_ab_apply _ hb p e).trans (shapeCast_a_1a_apply β hc (0 : Fin 1) e)

/-- The linear layer on a block of 256 rows, at entry `(i, e)`. -/
theorem lin256_apply (x : FVec Ideal S1x256x512 .f32) (w : FVec Ideal S512x512 .bf16) (β : FVec Ideal S512 .f32)
    (h1 : S1x256x512.ShapeCasts S256x512) (hlt : FTy.bits .bf16 < FTy.bits .f32) (h2 : S512x512.ShapeCasts S512x512)
    (h3 : S512.ShapeCasts S1x512) (h4 : S1x512.Broadcasts S256x512) (i : Fin 256) (e : Fin 512) :
    addf (matmul dot_S256x512_S512x512_S256x512_1_0_0_1_n_n none
            (truncf .bf16 (shapeCast S256x512 x h1 : FVec Ideal S256x512 .f32) hlt)
            (shapeCast S512x512 w h2 : FVec Ideal S512x512 .bf16) (constant (F := Ideal) S256x512 .f32 0x00000000#32))
        (broadcastTo S256x512 (shapeCast S1x512 β h3 : FVec Ideal S1x512 .f32) h4) (ix2 i e)
      = Cert.Spec.lin (fun d => x (ix3 (0 : Fin 1) i d)) (fun d e' => w (ix2 d e')) (fun e' => β (ix1 e')) e := by
  unfold Cert.Spec.lin
  refine congrArg₂ (· + ·) ?_ (bias_apply β h3 h4 i e)
  refine (matmul_rows256 _ _ i e).trans (Finset.sum_congr rfl fun k _ => ?_)
  refine congrArg₂ (· * ·) (shapeCast_1ab_ab_apply x h1 i k) ?_
  rw [shapeCast_self]

/-- The linear layer on all 4096 rows, at entry `(q, e)`. -/
theorem lin4096_apply (x : FVec Ideal S1x4096x512 .f32) (w : FVec Ideal S512x512 .bf16) (β : FVec Ideal S512 .f32)
    (h1 : S1x4096x512.ShapeCasts S4096x512) (hlt : FTy.bits .bf16 < FTy.bits .f32) (h2 : S512x512.ShapeCasts S512x512)
    (h3 : S512.ShapeCasts S1x512) (h4 : S1x512.Broadcasts S4096x512) (q : Fin 4096) (e : Fin 512) :
    addf (matmul dot_S4096x512_S512x512_S4096x512_1_0_0_1_n_n none
            (truncf .bf16 (shapeCast S4096x512 x h1 : FVec Ideal S4096x512 .f32) hlt)
            (shapeCast S512x512 w h2 : FVec Ideal S512x512 .bf16) (constant (F := Ideal) S4096x512 .f32 0x00000000#32))
        (broadcastTo S4096x512 (shapeCast S1x512 β h3 : FVec Ideal S1x512 .f32) h4) (ix2 q e)
      = Cert.Spec.lin (fun d => x (ix3 (0 : Fin 1) q d)) (fun d e' => w (ix2 d e')) (fun e' => β (ix1 e')) e := by
  unfold Cert.Spec.lin
  refine congrArg₂ (· + ·) ?_ (bias_apply β h3 h4 q e)
  refine (matmul_rows4096 _ _ q e).trans (Finset.sum_congr rfl fun k _ => ?_)
  refine congrArg₂ (· * ·) (shapeCast_1ab_ab_apply x h1 q k) ?_
  rw [shapeCast_self]

/-! ## The softmax along the rows -/

/-- The word of `-∞`. -/
theorem ofBits_neg_inf_f32 : Ideal.ofBits .f32 0xFF800000#32 = ⊥ := by simp [Ideal.ofBits, Ideal.ieee]

/-- The rows' maxima, kept as a column and repeated along the row: at `(i, q)` the maximum of row `i`, from `-∞`. -/
theorem rowMax_apply (s : FVec Ideal S256x4096 .f32) (hr : S256x4096.Reduces [1] S256) (hφ : FKind.Formats .f32)
    (hmax : (0xFF800000#32 : BitVec (FTy.bits .f32)) = FKind.maximumf.neutral .f32 hφ)
    (hc : S256.ShapeCasts S256x1) (hb : S256x1.Broadcasts S256x4096) (i : Fin 256) (q : Fin 4096) :
    broadcastTo S256x4096 (shapeCast S256x1 (multiReduction .maximumf [1] S256 s 0xFF800000#32 hr hφ hmax) hc) hb (ix2 i q)
      = (Finset.univ : Finset (Fin 4096)).fold max ⊥ (fun q' => s (ix2 i q')) :=
  (Cert.LibKeepdims.broadcastTo_a1_ab_apply _ hb i q).trans
    ((Cert.LibKeepdims.shapeCast_a_a1_apply _ hc i (0 : Fin 1)).trans
      ((Cert.LibKeepdims.multiReduction_maximumf_axis1 s _ hr hφ hmax i).trans
        (congrArg (fun b => (Finset.univ : Finset (Fin 4096)).fold max b (fun q' => s (ix2 i q'))) ofBits_neg_inf_f32)))

/-- The rows' sums, kept as a column and repeated along the row: at `(i, q)` the sum of row `i`. -/
theorem rowSum_apply (p : FVec Ideal S256x4096 .f32) (hr : S256x4096.Reduces [1] S256) (hφ : FKind.Formats .f32)
    (hadd : (0x00000000#32 : BitVec (FTy.bits .f32)) = FKind.add.neutral .f32 hφ)
    (hc : S256.ShapeCasts S256x1) (hb : S256x1.Broadcasts S256x4096) (i : Fin 256) (q : Fin 4096) :
    broadcastTo S256x4096 (shapeCast S256x1 (multiReduction .add [1] S256 p 0x00000000#32 hr hφ hadd) hc) hb (ix2 i q)
      = ∑ q' : Fin 4096, p (ix2 i q') :=
  (Cert.LibKeepdims.broadcastTo_a1_ab_apply _ hb i q).trans
    ((Cert.LibKeepdims.shapeCast_a_a1_apply _ hc i (0 : Fin 1)).trans
      (Cert.LibKeepdims.multiReduction_add_axis1 p _ hr hφ hadd i))

/-- The softmax along the rows, at entry `(i, q)`. -/
theorem softmax_apply (s : FVec Ideal S256x4096 .f32) (hr : S256x4096.Reduces [1] S256) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S256.ShapeCasts S256x1) (hb : S256x1.Broadcasts S256x4096) (i : Fin 256) (q : Fin 4096) :
    divf (exp (subf s (broadcastTo S256x4096 (shapeCast S256x1 (multiReduction .maximumf [1] S256 s 0xFF800000#32 hr hφ hmax) hc) hb)))
        (broadcastTo S256x4096 (shapeCast S256x1 (multiReduction .add [1] S256
          (exp (subf s (broadcastTo S256x4096 (shapeCast S256x1 (multiReduction .maximumf [1] S256 s 0xFF800000#32 hr hφ hmax) hc) hb)))
          0x00000000#32 hr hφ hadd) hc) hb) (ix2 i q)
      = Ideal.div (Ideal.exp (s (ix2 i q) - (Finset.univ : Finset (Fin 4096)).fold max ⊥ (fun q' => s (ix2 i q'))))
          (∑ q' : Fin 4096, Ideal.exp (s (ix2 i q') - (Finset.univ : Finset (Fin 4096)).fold max ⊥ (fun q'' => s (ix2 i q'')))) := by
  have hM := fun q' => rowMax_apply s hr hφ hmax hc hb i q'
  refine (divf_apply _ _ (ix2 i q)).trans (congrArg₂ Ideal.div ?_ ?_)
  · exact congrArg (fun m => Ideal.exp (s (ix2 i q) - m)) (hM q)
  · refine (rowSum_apply _ hr hφ hadd hc hb i q).trans (Finset.sum_congr rfl fun q' _ => ?_)
    exact congrArg (fun m => Ideal.exp (s (ix2 i q') - m)) (hM q')

/-- The softmax along the rows when row `i` holds the scores of a key row `kr` against the query rows `Q`: the weight of
    that key row at query `q`. -/
theorem softmax_attnRow (s : FVec Ideal S256x4096 .f32) (hr : S256x4096.Reduces [1] S256) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S256.ShapeCasts S256x1) (hb : S256x1.Broadcasts S256x4096) (i : Fin 256) (q : Fin 4096)
    (kr : Fin 512 → EReal) (Q : Fin 4096 → Fin 512 → EReal) (hs : ∀ q', s (ix2 i q') = Cert.Spec.scoreRow kr Q q') :
    divf (exp (subf s (broadcastTo S256x4096 (shapeCast S256x1 (multiReduction .maximumf [1] S256 s 0xFF800000#32 hr hφ hmax) hc) hb)))
        (broadcastTo S256x4096 (shapeCast S256x1 (multiReduction .add [1] S256
          (exp (subf s (broadcastTo S256x4096 (shapeCast S256x1 (multiReduction .maximumf [1] S256 s 0xFF800000#32 hr hφ hmax) hc) hb)))
          0x00000000#32 hr hφ hadd) hc) hb) (ix2 i q)
      = Cert.Spec.attnRow kr Q q := by
  have e : (fun q' => s (ix2 i q')) = Cert.Spec.scoreRow kr Q := funext hs
  refine (softmax_apply s hr hφ hmax hadd hc hb i q).trans ?_
  unfold Cert.Spec.attnRow Cert.Spec.denRow Cert.Spec.expRow Cert.Spec.maxRow
  rw [e]
  simp only [hs]

end Cert.KernelIdeal.Payloads

end
-- ==== Proof.Payloads.lean ====
/-
  The kernel body's four stored values, read at an entry, at the ideal values.

  The zero splat is `0` everywhere; the running sum's update adds the new tile to what the output block held; the
  query projection is the linear layer of the input row; and one tile of 256 key rows contributes, at `(q, d)`, the sum
  over its rows `i` of the weight of key row `i` at query `q` (the softmax of that key row's scores over ALL the
  queries) times the value row's entry `d`.
-/
import proofs.«121356_j10720238370834_2_alg».proof.Proof.Gen.KernelIdeal.Skeleton
import proofs.«121356_j10720238370834_2_alg».proof.Proof.Spec
import proofs.«121356_j10720238370834_2_alg».proof.Proof.Rows

noncomputable section

open scoped BigOperators

namespace Cert.KernelIdeal.Payloads

open Cert.KernelIdeal Cert.KernelIdeal.Gen Idealize.ShloMosaic Idealize.ShloMosaic.ValueIdx

/-- The zero splat, whatever its layout, is `0` at every entry. -/
theorem pay3_apply (i : S1x4096x512.Idx) : k0_pay3 (F := Ideal) i = 0 := by
  obtain ⟨u, q, d, rfl⟩ : ∃ (u : Fin 1) (q : Fin 4096) (d : Fin 512), i = ix3 u q d := ⟨i 0, i 1, i 2, eq_ix3 i⟩
  unfold k0_pay3
  refine (shapeCast_ab_1ab_apply _ _ u q d).trans ?_
  exact Ideal.ofBits_zero_f32

/-- The update of the running sum: what the block held plus the new tile. -/
theorem pay1_apply (v37 : FVec Ideal S4096x512 .f32) (v38 : Vec Ideal S1x4096x512 .f32) (q : Fin 4096) (d : Fin 512) :
    k0_pay1 (F := Ideal) v37 v38 (ix3 0 q d) = v38 (ix3 0 q d) + v37 (ix2 q d) := by
  unfold k0_pay1
  refine (shapeCast_ab_1ab_apply _ _ (0 : Fin 1) q d).trans ?_
  exact congrArg (· + v37 (ix2 q d)) (shapeCast_1ab_ab_apply v38 _ q d)

/-- The query projection: the linear layer of input row `q`. -/
theorem pay2_apply (v44 : Vec Ideal S1x4096x512 .f32) (v47 : Vec Ideal S512x512 .bf16) (v50 : Vec Ideal S512 .f32) (q : Fin 4096) (e : Fin 512) :
    k0_pay2 (F := Ideal) v44 v47 v50 (ix2 q e)
      = Cert.Spec.lin (fun d => v44 (ix3 0 q d)) (fun d e' => v47 (ix2 d e')) (fun e' => v50 (ix1 e')) e := by
  unfold k0_pay2
  refine (congrFun (shapeCast_self _ _) (ix2 q e)).trans ?_
  refine (truncf_apply (φ := .f32) (ψ := .bf16) _ _ (ix2 q e)).trans ?_
  exact lin4096_apply v44 v47 v50 _ _ _ _ _ q e

/-- One tile of 256 key rows: the sum over its rows of the key row's weight at query `q` times the value row's entry. -/
theorem pay4_apply (v6 : Vec Ideal S1x256x512 .f32) (v9 : Vec Ideal S512x512 .bf16) (v12 : Vec Ideal S512 .f32) (v17 : Vec Ideal S512x512 .bf16) (v20 : Vec Ideal S512 .f32) (v25 : Vec Ideal S4096x512 .bf16) (q : Fin 4096) (d : Fin 512) :
    k0_pay4 (F := Ideal) v6 v9 v12 v17 v20 v25 (ix2 q d)
      = ∑ i : Fin 256,
          Cert.Spec.attnRow (Cert.Spec.lin (fun d' => v6 (ix3 0 i d')) (fun d' e => v9 (ix2 d' e)) (fun e => v12 (ix1 e))) (fun q' e => v25 (ix2 q' e)) q
            * Cert.Spec.lin (fun d' => v6 (ix3 0 i d')) (fun d' e => v17 (ix2 d' e)) (fun e => v20 (ix1 e)) d := by
  unfold k0_pay4
  refine (matmul_cols _ _ q d).trans (Finset.sum_congr rfl fun i _ => ?_)
  refine congrArg₂ (· * ·) ?_ ?_
  · refine (truncf_apply (φ := .f32) (ψ := .bf16) _ _ (ix2 i q)).trans ?_
    refine softmax_attnRow _ _ _ _ _ _ _ i q _ _ fun q' => ?_
    refine (matmul_scores _ _ i q').trans ?_
    unfold Cert.Spec.scoreRow
    refine Finset.sum_congr rfl fun k _ => congrArg (· * v25 (ix2 q' k)) ?_
    refine (truncf_apply (φ := .f32) (ψ := .bf16) _ _ (ix2 i k)).trans ?_
    exact lin256_apply v6 v9 v12 _ _ _ _ _ i k
  · refine (truncf_apply (φ := .f32) (ψ := .bf16) _ _ (ix2 i d)).trans ?_
    exact lin256_apply v6 v17 v20 _ _ _ _ _ i d

end Cert.KernelIdeal.Payloads

end
-- ==== Proof.Pieces.lean ====
/-
  What each control case of the kernel body leaves, as values.

  The body runs at a grid point `i = (b, kt)` on whole buffers: the resident input block `x0` (4096 rows of 512), the
  three projection weights and biases `x1 … x6`, the output block (an accumulator over the 16 points of a batch) and a
  scratch holding the projected queries. At `kt = 0` (case A) it first stores the projected queries `k0_pay2 x0 x1 x2`
  into the scratch and the zero block `k0_pay3` into the output; at every point it then reads the 256-row tile of the
  input block at rows `kt * 256 …` (`tileOf i x0`), computes the tile's addend `k0_pay4` against the scratch's
  contents, and stores the output's contents plus that addend (`k0_pay1`).

  Each store covers its whole buffer through the rectangle at zero offsets, so what a case leaves in a buffer is the
  payload of its last store there, and a load of a buffer stored earlier in the same case reads that store's payload.
  The three theorems below say so for the scratch after case A and for the output after either case; `tileOf_apply`
  reads the tile at an index: row `r` of the tile is row `kt * 256 + r` of the block. Everything is generic in the
  number model `F`.
-/
import proofs.«121356_j10720238370834_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]

/-- The zero offsets of a whole-buffer access, at rank one, two and three. -/
theorem hz1 : (![0] : Fin 1 → Nat) = fun _ => 0 := funext fun a => by
  match a with | ⟨0, _⟩ => rfl
theorem hz2 : (![0, 0] : Fin 2 → Nat) = fun _ => 0 := funext fun a => by
  match a with | ⟨0, _⟩ => rfl | ⟨1, _⟩ => rfl
theorem hz3 : (![0, 0, 0] : Fin 3 → Nat) = fun _ => 0 := funext fun a => by
  match a with | ⟨0, _⟩ => rfl | ⟨1, _⟩ => rfl | ⟨2, _⟩ => rfl

/-- The second grid coordinate is below 16. -/
theorem kt_lt (i : grid0.Coords) : (i 1).val < 16 := (i 1).isLt

/-- The 256 rows of the resident input block that the tile load of point `i` reads. -/
def tileOf (i : grid0.Coords) (x0 : Vec F S1x4096x512 .f32) : Vec F S1x256x512 .f32 :=
  View.ld x0 (Rect.unit (s := S1x4096x512) (k0_off1 i) S1x256x512.size (k0_off1_inb i))

/-- Row `r` of the tile of point `i = (b, kt)` is row `kt * 256 + r` of the block. -/
theorem tileOf_apply (i : grid0.Coords) (x0 : Vec F S1x4096x512 .f32) (r : Fin 256) (d : Fin 512) :
    tileOf i x0 (ix3 0 r d) = x0 (ix3 0 ⟨(i 1).val * 256 + r.val, by have := kt_lt i; have := r.isLt; omega⟩ d) := by
  unfold tileOf
  refine congrArg x0 (funext fun a => Fin.ext ?_)
  have e : ∀ a, k0_off1 i a = (![0, 256 * (i 1).val, 0] : Fin 3 → Nat) a := fun a => congrFun (k0_off1_eq i) a
  match a with
  | ⟨0, _⟩ => show k0_off1 i 0 + 1 * 0 = 0; rw [e 0]; rfl
  | ⟨1, _⟩ => show k0_off1 i 1 + 1 * r.val = (i 1).val * 256 + r.val; rw [e 1]; show 256 * (i 1).val + 1 * r.val = _; omega
  | ⟨2, _⟩ => show k0_off1 i 2 + 1 * d.val = d.val; rw [e 2]; show 0 + 1 * d.val = _; omega

/-- Case A leaves the projected queries in the scratch: its one covering store's payload, whose loads read the whole
    buffers. -/
theorem sout0_A_0_eq (c : Dev nD) (i : grid0.Coords) (arg2 : Memref sig .tc .vmem S1x4096x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x4096x512 .f32) (harg9 : arg9.IsWhole) (arg10 : Memref sig .tc .vmem S4096x512 .bf16) (harg10 : arg10.IsWhole) (hc0 : cond0_0 i)
    (x0 : Vec F S1x4096x512 .f32) (x1 : Vec F S512x512 .bf16) (x2 : Vec F S512 .f32) (x3 : Vec F S512x512 .bf16) (x4 : Vec F S512 .f32) (x5 : Vec F S512x512 .bf16) (x6 : Vec F S512 .f32) :
    sout0_A_0 c i arg2 harg2 arg3 harg3 arg4 harg4 arg5 harg5 arg6 harg6 arg7 harg7 arg8 harg8 arg9 harg9 arg10 harg10 hc0 x0 x1 x2 x3 x4 x5 x6 = k0_pay2 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S4096x512) hz2]
  simp only [View.readAt_eq_ld, harg2.read_unread, harg3.read_unread, harg4.read_unread,
    View.ld_unit_zero (S := S1x4096x512) hz3, View.ld_unit_zero (S := S512x512) hz2, View.ld_unit_zero (S := S512) hz1]

/-- Case A leaves, in the output block, the zero block plus the tile's addend computed against the queries it has just
    stored: the later of its two covering stores, whose loads of the scratch and of the output read back what the
    earlier stores left. -/
theorem out0_A_7_eq (c : Dev nD) (i : grid0.Coords) (arg2 : Memref sig .tc .vmem S1x4096x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x4096x512 .f32) (harg9 : arg9.IsWhole) (arg10 : Memref sig .tc .vmem S4096x512 .bf16) (harg10 : arg10.IsWhole) (hc0 : cond0_0 i)
    (x0 : Vec F S1x4096x512 .f32) (x1 : Vec F S512x512 .bf16) (x2 : Vec F S512 .f32) (x3 : Vec F S512x512 .bf16) (x4 : Vec F S512 .f32) (x5 : Vec F S512x512 .bf16) (x6 : Vec F S512 .f32) :
    out0_A_7 c i arg2 harg2 arg3 harg3 arg4 harg4 arg5 harg5 arg6 harg6 arg7 harg7 arg8 harg8 arg9 harg9 arg10 harg10 hc0 x0 x1 x2 x3 x4 x5 x6 = k0_pay1 (k0_pay4 (tileOf i x0) x3 x4 x5 x6 (k0_pay2 x0 x1 x2)) (k0_pay3 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x4096x512) hz3, View.readCov_unit_zero (S := S1x4096x512) _ hz3,
    View.readCov_unit_zero (S := S4096x512) _ hz2]
  simp only [View.readAt_eq_ld, harg2.read_unread, harg3.read_unread, harg4.read_unread, harg5.read_unread,
    harg6.read_unread, harg7.read_unread, harg8.read_unread,
    View.ld_unit_zero (S := S1x4096x512) hz3, View.ld_unit_zero (S := S512x512) hz2, View.ld_unit_zero (S := S512) hz1]
  rfl

/-- Case B leaves, in the output block, what the point before left plus the tile's addend computed against the carried
    queries: its one covering store's payload. -/
theorem out0_B_7_eq (c : Dev nD) (i : grid0.Coords) (arg2 : Memref sig .tc .vmem S1x4096x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x4096x512 .f32) (harg9 : arg9.IsWhole) (arg10 : Memref sig .tc .vmem S4096x512 .bf16) (harg10 : arg10.IsWhole) (hc0 : ¬cond0_0 i)
    (x0 : Vec F S1x4096x512 .f32) (x1 : Vec F S512x512 .bf16) (x2 : Vec F S512 .f32) (x3 : Vec F S512x512 .bf16) (x4 : Vec F S512 .f32) (x5 : Vec F S512x512 .bf16) (x6 : Vec F S512 .f32) (xo7 : Vec F S1x4096x512 .f32) (xs0 : Vec F S4096x512 .bf16) :
    out0_B_7 c i arg2 harg2 arg3 harg3 arg4 harg4 arg5 harg5 arg6 harg6 arg7 harg7 arg8 harg8 arg9 harg9 arg10 harg10 hc0 x0 x1 x2 x3 x4 x5 x6 xo7 xs0 = k0_pay1 (k0_pay4 (tileOf i x0) x3 x4 x5 x6 xs0) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xo7 xs0)]
  unfold kernelRun0_B
  dsimp only
  sl_unfold_words
  rw [View.canon_unit_zero (S := S1x4096x512) hz3]
  simp only [View.readAt_eq_ld, harg2.read_unread, harg5.read_unread, harg6.read_unread, harg7.read_unread,
    harg8.read_unread, harg9.read_unread, harg10.read_unread,
    View.ld_unit_zero (S := S1x4096x512) hz3, View.ld_unit_zero (S := S4096x512) hz2,
    View.ld_unit_zero (S := S512x512) hz2, View.ld_unit_zero (S := S512) hz1]
  rfl

end Cert.KernelIdeal.Pieces

end
-- ==== Proof.Steps.lean ====
/-
  One grid point's work, over the extended reals, stated for arbitrary contents of the staging buffers.

  At a point of batch `b` and key tile `j` the body reads the resident input slab `x0` (the rows of batch `b`),
  the three transposed weight matrices and the biases, and the query rows held in the scratch.  If those
  buffers hold the corresponding parts of the argument arrays, then
    * the Q projection of the slab is the array of query rows `Qf b` (`qrows`);
    * the tile's matrix product `attnᵀ · V` at `(q, d)` is the sum of the terms of the 256 key rows of tile `j`
      (`tile`): every key row of the tile is `Kf b (row j r)`, its value row `Vf b (row j r)`;
    * the first tile added to the zero block is the running sum after tile 0 (`first_tile`), and a later tile
      added to the running sum after tile `k` is the running sum after tile `k + 1` (`next_tile`).
-/
import proofs.«121356_j10720238370834_2_alg».proof.Proof.Payloads
import proofs.«121356_j10720238370834_2_alg».proof.Proof.Pieces
import proofs.«121356_j10720238370834_2_alg».proof.Proof.Spec

noncomputable section

namespace Cert.KernelIdeal.Steps

open Cert.KernelIdeal Cert.KernelIdeal.Gen Idealize.ShloMosaic Idealize.ShloMosaic.ValueIdx
open Cert.KernelIdeal.Payloads Cert.KernelIdeal.Pieces

variable (X : Cert.Spec.Arr3) (Wq : Cert.Spec.Mat) (Bq : Cert.Spec.Vec1) (Wk : Cert.Spec.Mat) (Bk : Cert.Spec.Vec1)
  (Wv : Cert.Spec.Mat) (Bv : Cert.Spec.Vec1) (b : Fin 4)

/-- The Q projection of the slab of batch `b` is the array of its query rows. -/
theorem qrows (x0 : Vec Ideal S1x4096x512 .f32) (x1 : Vec Ideal S512x512 .bf16) (x2 : Vec Ideal S512 .f32)
    (h0 : ∀ (n : Fin 4096) (d : Fin 512), x0 (ix3 (0 : Fin 1) n d) = X (ix3 b n d))
    (h1 : ∀ d e : Fin 512, x1 (ix2 d e) = Wq (ix2 e d)) (h2 : ∀ e : Fin 512, x2 (ix1 e) = Bq (ix1 e))
    (q : Fin 4096) (e : Fin 512) :
    k0_pay2 (F := Ideal) x0 x1 x2 (ix2 q e) = Cert.Spec.Qf X Wq Bq b q e := by
  rw [pay2_apply]
  unfold Cert.Spec.Qf Cert.Spec.rowOf Cert.Spec.wT Cert.Spec.vecOf
  simp only [h0, h1, h2]

/-- One tile's product at `(q, d)` is the sum of the terms of the tile's 256 key rows. -/
theorem tile (i : grid0.Coords) (j : Fin 16) (hj : (i 1).val = j.val)
    (x0 : Vec Ideal S1x4096x512 .f32) (x3 : Vec Ideal S512x512 .bf16) (x4 : Vec Ideal S512 .f32)
    (x5 : Vec Ideal S512x512 .bf16) (x6 : Vec Ideal S512 .f32) (qs : Vec Ideal S4096x512 .bf16)
    (h0 : ∀ (n : Fin 4096) (d : Fin 512), x0 (ix3 (0 : Fin 1) n d) = X (ix3 b n d))
    (h3 : ∀ d e : Fin 512, x3 (ix2 d e) = Wk (ix2 e d)) (h4 : ∀ e : Fin 512, x4 (ix1 e) = Bk (ix1 e))
    (h5 : ∀ d e : Fin 512, x5 (ix2 d e) = Wv (ix2 e d)) (h6 : ∀ e : Fin 512, x6 (ix1 e) = Bv (ix1 e))
    (hq : ∀ (q : Fin 4096) (e : Fin 512), qs (ix2 q e) = Cert.Spec.Qf X Wq Bq b q e)
    (q : Fin 4096) (d : Fin 512) :
    k0_pay4 (F := Ideal) (tileOf i x0) x3 x4 x5 x6 qs (ix2 q d)
      = Cert.Spec.tileOut X Wq Bq Wk Bk Wv Bv b j q d := by
  rw [pay4_apply]
  unfold Cert.Spec.tileOut Cert.Spec.term
  refine Finset.sum_congr rfl fun r _ => ?_
  have hQ : (fun (q' : Fin 4096) (e : Fin 512) => qs (ix2 q' e)) = Cert.Spec.Qf X Wq Bq b :=
    funext fun q' => funext fun e => hq q' e
  have hrow : ∀ d' : Fin 512, tileOf i x0 (ix3 (0 : Fin 1) r d') = X (ix3 b (Cert.Spec.row j r) d') := fun d' => by
    rw [tileOf_apply, h0]
    exact congrArg (fun n => X (ix3 b n d')) (Fin.ext (by
      show (i 1).val * 256 + r.val = j.val * 256 + r.val
      rw [hj]))
  have hK : Cert.Spec.lin (fun d' => tileOf i x0 (ix3 (0 : Fin 1) r d')) (fun d' e => x3 (ix2 d' e)) (fun e => x4 (ix1 e))
      = Cert.Spec.Kf X Wk Bk b (Cert.Spec.row j r) := by
    unfold Cert.Spec.Kf Cert.Spec.rowOf Cert.Spec.wT Cert.Spec.vecOf
    simp only [hrow, h3, h4]
  have hV : Cert.Spec.lin (fun d' => tileOf i x0 (ix3 (0 : Fin 1) r d')) (fun d' e => x5 (ix2 d' e)) (fun e => x6 (ix1 e))
      = Cert.Spec.Vf X Wv Bv b (Cert.Spec.row j r) := by
    unfold Cert.Spec.Vf Cert.Spec.rowOf Cert.Spec.wT Cert.Spec.vecOf
    simp only [hrow, h5, h6]
  rw [hQ, hK, hV]

/-- The first tile, added to the zero block: the running sum after tile 0. -/
theorem first_tile (i : grid0.Coords) (hj : (i 1).val = 0)
    (x0 : Vec Ideal S1x4096x512 .f32) (x1 : Vec Ideal S512x512 .bf16) (x2 : Vec Ideal S512 .f32)
    (x3 : Vec Ideal S512x512 .bf16) (x4 : Vec Ideal S512 .f32) (x5 : Vec Ideal S512x512 .bf16) (x6 : Vec Ideal S512 .f32)
    (h0 : ∀ (n : Fin 4096) (d : Fin 512), x0 (ix3 (0 : Fin 1) n d) = X (ix3 b n d))
    (h1 : ∀ d e : Fin 512, x1 (ix2 d e) = Wq (ix2 e d)) (h2 : ∀ e : Fin 512, x2 (ix1 e) = Bq (ix1 e))
    (h3 : ∀ d e : Fin 512, x3 (ix2 d e) = Wk (ix2 e d)) (h4 : ∀ e : Fin 512, x4 (ix1 e) = Bk (ix1 e))
    (h5 : ∀ d e : Fin 512, x5 (ix2 d e) = Wv (ix2 e d)) (h6 : ∀ e : Fin 512, x6 (ix1 e) = Bv (ix1 e))
    (q : Fin 4096) (d : Fin 512) :
    k0_pay1 (F := Ideal) (k0_pay4 (tileOf i x0) x3 x4 x5 x6 (k0_pay2 x0 x1 x2)) (k0_pay3 (F := Ideal)) (ix3 (0 : Fin 1) q d)
      = Cert.Spec.accOut X Wq Bq Wk Bk Wv Bv b 0 q d := by
  rw [pay1_apply, pay3_apply, zero_add, Cert.Spec.accOut_zero]
  exact tile X Wq Bq Wk Bk Wv Bv b i 0 hj x0 x3 x4 x5 x6 (k0_pay2 x0 x1 x2) h0 h3 h4 h5 h6
    (qrows X Wq Bq b x0 x1 x2 h0 h1 h2) q d

/-- A later tile, added to the running sum after tile `k`: the running sum after tile `k + 1`. -/
theorem next_tile (i : grid0.Coords) (k : ℕ) (hk : k + 1 < 16) (hj : (i 1).val = k + 1)
    (x0 : Vec Ideal S1x4096x512 .f32) (x3 : Vec Ideal S512x512 .bf16) (x4 : Vec Ideal S512 .f32)
    (x5 : Vec Ideal S512x512 .bf16) (x6 : Vec Ideal S512 .f32)
    (xo7 : Vec Ideal S1x4096x512 .f32) (xs0 : Vec Ideal S4096x512 .bf16)
    (h0 : ∀ (n : Fin 4096) (d : Fin 512), x0 (ix3 (0 : Fin 1) n d) = X (ix3 b n d))
    (h3 : ∀ d e : Fin 512, x3 (ix2 d e) = Wk (ix2 e d)) (h4 : ∀ e : Fin 512, x4 (ix1 e) = Bk (ix1 e))
    (h5 : ∀ d e : Fin 512, x5 (ix2 d e) = Wv (ix2 e d)) (h6 : ∀ e : Fin 512, x6 (ix1 e) = Bv (ix1 e))
    (hq : ∀ (q : Fin 4096) (e : Fin 512), xs0 (ix2 q e) = Cert.Spec.Qf X Wq Bq b q e)
    (ho : ∀ (q : Fin 4096) (d : Fin 512), xo7 (ix3 (0 : Fin 1) q d) = Cert.Spec.accOut X Wq Bq Wk Bk Wv Bv b k q d)
    (q : Fin 4096) (d : Fin 512) :
    k0_pay1 (F := Ideal) (k0_pay4 (tileOf i x0) x3 x4 x5 x6 xs0) xo7 (ix3 (0 : Fin 1) q d)
      = Cert.Spec.accOut X Wq Bq Wk Bk Wv Bv b (k + 1) q d := by
  rw [pay1_apply, ho, Cert.Spec.accOut_succ X Wq Bq Wk Bk Wv Bv b k hk q d]
  exact congrArg _ (tile X Wq Bq Wk Bk Wv Bv b i ⟨k + 1, hk⟩ hj x0 x3 x4 x5 x6 xs0 h0 h3 h4 h5 h6 hq q d)

end Cert.KernelIdeal.Steps

end
-- ==== Proof.Blocks.lean ====
/-
  What the kernel's input windows hold at a grid point, read at an index.

  The grid has 64 points, point `t` being batch `t / 16` and key tile `t % 16`.  Window 0 is the whole
  `[4096, 512]` slab of batch `t / 16` of the input; the weight and bias windows are whole arrays, the three
  weight matrices being the transposes the host forms before the call, so that entry `(d, e)` of the window is
  entry `(e, d)` of the argument (a change of float format is the identity on the extended reals).
-/
import proofs.«121356_j10720238370834_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

/-- The block indices of the windows and the key-tile coordinate, decided once over the 64 points. -/
theorem idx_facts : ∀ t : Fin cfg0.N,
    win0_0.index t (0 : Fin 3) = t.val / 16 ∧ win0_0.index t (1 : Fin 3) = 0 ∧ win0_0.index t (2 : Fin 3) = 0
    ∧ win0_7.index t (0 : Fin 3) = t.val / 16 ∧ win0_7.index t (1 : Fin 3) = 0 ∧ win0_7.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ (grid0.coords t (1 : Fin 2)).val = t.val % 16 :=
  (by decide +kernel : ∀ t : Fin grid0.N, _)

/-- The batch a grid point works on. -/
def batchOf (t : Fin cfg0.N) : Fin 4 := ⟨t.val / 16, by have := t.isLt; have : cfg0.N = 64 := N_0; omega⟩

theorem batchOf_val (t : Fin cfg0.N) : (batchOf t).val = t.val / 16 := rfl

variable (m : (ℓ : Loc nD τ sig) → Buf (Elt Ideal) ℓ)

/-- Window 0 at point `t` is the slab of batch `t / 16`. -/
theorem iblk0_apply (c : Dev nD) (t : Fin cfg0.N) (n : Fin 4096) (d : Fin 512) :
    iblk m c 0 t (ix3 (0 : Fin 1) n d)
      = m ((c : Thread nD τ).loc main_arg0) (ix3 (batchOf t) n d) := by
  unfold iblk
  rw [View.read_apply]
  show V m c main_arg0 _ = _
  rw [V_main_arg0]
  congr 1
  obtain ⟨e0, e1, e2, -⟩ := idx_facts t
  funext a
  apply Fin.ext
  match a with
  | ⟨0, _⟩ => show win0_0.index t (0 : Fin 3) * 1 + 1 * 0 = t.val / 16; omega
  | ⟨1, _⟩ => show win0_0.index t (1 : Fin 3) * 4096 + 1 * n.val = n.val; omega
  | ⟨2, _⟩ => show win0_0.index t (2 : Fin 3) * 512 + 1 * d.val = d.val; omega

/-- The bias windows are the whole argument vectors. -/
theorem iblk2_apply (c : Dev nD) (t : Fin cfg0.N) (e : Fin 512) :
    iblk m c 2 t (ix1 e) = m ((c : Thread nD τ).loc main_arg2) (ix1 e) := by
  unfold iblk
  rw [View.read_apply]
  show V m c main_arg2 _ = _
  rw [V_main_arg2]
  congr 1
  obtain ⟨-, -, -, -, -, -, -, -, e8, -⟩ := idx_facts t
  funext a
  apply Fin.ext
  match a with
  | ⟨0, _⟩ => show win0_2.index t (0 : Fin 1) * 512 + 1 * e.val = e.val; omega

theorem iblk4_apply (c : Dev nD) (t : Fin cfg0.N) (e : Fin 512) :
    iblk m c 4 t (ix1 e) = m ((c : Thread nD τ).loc main_arg4) (ix1 e) := by
  unfold iblk
  rw [View.read_apply]
  show V m c main_arg4 _ = _
  rw [V_main_arg4]
  congr 1
  obtain ⟨-, -, -, -, -, -, -, -, -, -, -, e11, -⟩ := idx_facts t
  funext a
  apply Fin.ext
  match a with
  | ⟨0, _⟩ => show win0_4.index t (0 : Fin 1) * 512 + 1 * e.val = e.val; omega

theorem iblk6_apply (c : Dev nD) (t : Fin cfg0.N) (e : Fin 512) :
    iblk m c 6 t (ix1 e) = m ((c : Thread nD τ).loc main_arg6) (ix1 e) := by
  unfold iblk
  rw [View.read_apply]
  show V m c main_arg6 _ = _
  rw [V_main_arg6]
  congr 1
  obtain ⟨-, -, -, -, -, -, -, -, -, -, -, -, -, -, e14, -⟩ := idx_facts t
  funext a
  apply Fin.ext
  match a with
  | ⟨0, _⟩ => show win0_6.index t (0 : Fin 1) * 512 + 1 * e.val = e.val; omega

/-- What the host leaves in the three transposed weight buffers. -/
theorem V_main_v1 (c : Dev nD) :
    (V m c main_v1 : S512x512.Idx → EReal)
      = truncf (F := Ideal) .bf16 (transpose S512x512 [1, 0] (m ((c : Thread nD τ).loc main_arg1)) transposes_S512x512_S512x512_1_0) bitsLt_bf16_f32 := by
  dsimp only [Gen.V, Gen.hostOps0]; after_results

theorem V_main_v3 (c : Dev nD) :
    (V m c main_v3 : S512x512.Idx → EReal)
      = truncf (F := Ideal) .bf16 (transpose S512x512 [1, 0] (m ((c : Thread nD τ).loc main_arg3)) transposes_S512x512_S512x512_1_0) bitsLt_bf16_f32 := by
  dsimp only [Gen.V, Gen.hostOps0]; after_results

theorem V_main_v5 (c : Dev nD) :
    (V m c main_v5 : S512x512.Idx → EReal)
      = truncf (F := Ideal) .bf16 (transpose S512x512 [1, 0] (m ((c : Thread nD τ).loc main_arg5)) transposes_S512x512_S512x512_1_0) bitsLt_bf16_f32 := by
  dsimp only [Gen.V, Gen.hostOps0]; after_results

/-- A transposed `[512, 512]` matrix, format changed, at `(d, e)` is the matrix at `(e, d)`. -/
theorem transposed_apply (w : S512x512.Idx → EReal) (d e : Fin 512) :
    truncf (F := Ideal) .bf16 (transpose S512x512 [1, 0] w transposes_S512x512_S512x512_1_0) bitsLt_bf16_f32 (ix2 d e)
      = w (ix2 e d) := by
  show transpose S512x512 [1, 0] w transposes_S512x512_S512x512_1_0 (ix2 d e) = _
  refine transpose_apply [1, 0] w transposes_S512x512_S512x512_1_0 (ix2 d e) (ix2 e d) fun b => ?_
  match b with
  | ⟨0, _⟩ => rfl
  | ⟨1, _⟩ => rfl

/-- The weight windows at `(d, e)` are the argument matrices at `(e, d)`. -/
theorem iblk1_apply (c : Dev nD) (t : Fin cfg0.N) (d e : Fin 512) :
    iblk m c 1 t (ix2 d e) = m ((c : Thread nD τ).loc main_arg1) (ix2 e d) := by
  unfold iblk
  rw [View.read_apply]
  show V m c main_v1 _ = _
  rw [V_main_v1, ← transposed_apply (m ((c : Thread nD τ).loc main_arg1)) d e]
  congr 1
  obtain ⟨-, -, -, -, -, -, e6, e7, -⟩ := idx_facts t
  funext a
  apply Fin.ext
  match a with
  | ⟨0, _⟩ => show win0_1.index t (0 : Fin 2) * 512 + 1 * d.val = d.val; omega
  | ⟨1, _⟩ => show win0_1.index t (1 : Fin 2) * 512 + 1 * e.val = e.val; omega

theorem iblk3_apply (c : Dev nD) (t : Fin cfg0.N) (d e : Fin 512) :
    iblk m c 3 t (ix2 d e) = m ((c : Thread nD τ).loc main_arg3) (ix2 e d) := by
  unfold iblk
  rw [View.read_apply]
  show V m c main_v3 _ = _
  rw [V_main_v3, ← transposed_apply (m ((c : Thread nD τ).loc main_arg3)) d e]
  congr 1
  obtain ⟨-, -, -, -, -, -, -, -, -, e9, e10, -⟩ := idx_facts t
  funext a
  apply Fin.ext
  match a with
  | ⟨0, _⟩ => show win0_3.index t (0 : Fin 2) * 512 + 1 * d.val = d.val; omega
  | ⟨1, _⟩ => show win0_3.index t (1 : Fin 2) * 512 + 1 * e.val = e.val; omega

theorem iblk5_apply (c : Dev nD) (t : Fin cfg0.N) (d e : Fin 512) :
    iblk m c 5 t (ix2 d e) = m ((c : Thread nD τ).loc main_arg5) (ix2 e d) := by
  unfold iblk
  rw [View.read_apply]
  show V m c main_v5 _ = _
  rw [V_main_v5, ← transposed_apply (m ((c : Thread nD τ).loc main_arg5)) d e]
  congr 1
  obtain ⟨-, -, -, -, -, -, -, -, -, -, -, -, e12, e13, -⟩ := idx_facts t
  funext a
  apply Fin.ext
  match a with
  | ⟨0, _⟩ => show win0_5.index t (0 : Fin 2) * 512 + 1 * d.val = d.val; omega
  | ⟨1, _⟩ => show win0_5.index t (1 : Fin 2) * 512 + 1 * e.val = e.val; omega

end Cert.KernelIdeal.Blocks

end
-- ==== Proof.Invariant.lean ====
/-
  What the output's staging buffer and the scratch hold after every grid point, by induction on the point.

  Point `t` works on batch `t / 16` and key tile `t % 16`.  After point `t`
    * the scratch holds the query rows of the batch, `Qf (t / 16)` (written at the batch's first point, kept after);
    * the output's buffer holds the running sum of tiles `0 … t % 16` of the batch.
  At a batch's first point the body writes the query rows and the zero block and adds the first tile; at any
  other point it adds the next tile to what the point before left (same batch, tile `t % 16 - 1`).
-/
import proofs.«121356_j10720238370834_2_alg».proof.Proof.Steps
import proofs.«121356_j10720238370834_2_alg».proof.Proof.Blocks

set_option maxRecDepth 16384

noncomputable section

namespace Cert.KernelIdeal.Invariant

open Cert.KernelIdeal Cert.KernelIdeal.Gen Cert.KernelIdeal.Blocks Idealize.ShloMosaic Idealize.ShloMosaic.TcCoe
open Idealize.SL.Sem Idealize.ShloMosaic.ValueIdx

variable (m : (ℓ : Loc nD τ sig) → Buf (Elt Ideal) ℓ)

/-- The seven argument arrays at launch. -/
abbrev aX (c : Dev nD) : Cert.Spec.Arr3 := m ((c : Thread nD τ).loc main_arg0)
abbrev aWq (c : Dev nD) : Cert.Spec.Mat := m ((c : Thread nD τ).loc main_arg1)
abbrev aBq (c : Dev nD) : Cert.Spec.Vec1 := m ((c : Thread nD τ).loc main_arg2)
abbrev aWk (c : Dev nD) : Cert.Spec.Mat := m ((c : Thread nD τ).loc main_arg3)
abbrev aBk (c : Dev nD) : Cert.Spec.Vec1 := m ((c : Thread nD τ).loc main_arg4)
abbrev aWv (c : Dev nD) : Cert.Spec.Mat := m ((c : Thread nD τ).loc main_arg5)
abbrev aBv (c : Dev nD) : Cert.Spec.Vec1 := m ((c : Thread nD τ).loc main_arg6)

/-- The key-tile coordinate of point `t`. -/
theorem tile_coord (t : Fin cfg0.N) : (grid0.coords t (1 : Fin 2)).val = t.val % 16 := by
  obtain ⟨-, -, -, -, -, -, -, -, -, -, -, -, -, -, -, e15⟩ := idx_facts t
  exact e15

/-- At a batch's first point: the scratch is written with the query rows, the output with the first tile. -/
theorem first_point (c : Dev nD) (t : Fin cfg0.N) (h0 : t.val % 16 = 0) :
    (∀ (q : Fin 4096) (e : Fin 512), (outsAt0 m c t.val t.isLt).2 (ix2 q e) = Cert.Spec.Qf (aX m c) (aWq m c) (aBq m c) (batchOf t) q e)
    ∧ (∀ (q : Fin 4096) (d : Fin 512), (outsAt0 m c t.val t.isLt).1 (ix3 (0 : Fin 1) q d)
        = Cert.Spec.accOut (aX m c) (aWq m c) (aBq m c) (aWk m c) (aBk m c) (aWv m c) (aBv m c) (batchOf t) (t.val % 16) q d) := by
  rw [outsAt0_A m c t h0]
  dsimp only
  constructor
  · intro q e
    rw [Pieces.sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)]
    exact Steps.qrows (aX m c) (aWq m c) (aBq m c) (batchOf t) (iblk m c 0 t) (iblk m c 1 t) (iblk m c 2 t)
      (iblk0_apply m c t) (iblk1_apply m c t) (iblk2_apply m c t) q e
  · intro q d
    rw [Pieces.out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t), h0]
    exact Steps.first_tile (aX m c) (aWq m c) (aBq m c) (aWk m c) (aBk m c) (aWv m c) (aBv m c) (batchOf t) (grid0.coords t) ((tile_coord t).trans h0)
      (iblk m c 0 t) (iblk m c 1 t) (iblk m c 2 t) (iblk m c 3 t) (iblk m c 4 t) (iblk m c 5 t) (iblk m c 6 t)
      (iblk0_apply m c t) (iblk1_apply m c t) (iblk2_apply m c t) (iblk3_apply m c t) (iblk4_apply m c t)
      (iblk5_apply m c t) (iblk6_apply m c t) q d

/-- After every point: the query rows of the batch in the scratch, the running sum in the output's buffer. -/
theorem holds (c : Dev nD) : ∀ (n : ℕ) (h : n < cfg0.N),
    (∀ (q : Fin 4096) (e : Fin 512), (outsAt0 m c n h).2 (ix2 q e) = Cert.Spec.Qf (aX m c) (aWq m c) (aBq m c) (batchOf ⟨n, h⟩) q e)
    ∧ (∀ (q : Fin 4096) (d : Fin 512), (outsAt0 m c n h).1 (ix3 (0 : Fin 1) q d)
        = Cert.Spec.accOut (aX m c) (aWq m c) (aBq m c) (aWk m c) (aBk m c) (aWv m c) (aBv m c) (batchOf ⟨n, h⟩) (n % 16) q d)
  | 0, h => first_point m c ⟨0, h⟩ rfl
  | n + 1, h => by
    by_cases h0 : (n + 1) % 16 = 0
    · exact first_point m c ⟨n + 1, h⟩ h0
    · obtain ⟨ihq, iho⟩ := holds c n (Nat.lt_of_succ_lt h)
      have hb : batchOf ⟨n, Nat.lt_of_succ_lt h⟩ = batchOf ⟨n + 1, h⟩ := Fin.ext (by
        show n / 16 = (n + 1) / 16
        omega)
      have hk : n % 16 + 1 < 16 := by omega
      have hm : (n + 1) % 16 = n % 16 + 1 := by omega
      rw [hb] at ihq iho
      rw [outsAt0_B m c ⟨n + 1, h⟩ h0]
      dsimp only
      constructor
      · intro q e
        unfold sout0_B_0
        exact ihq q e
      · intro q d
        rw [Pieces.out0_B_7_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hc => h0 ((hcond0_0 ⟨n + 1, h⟩).mp hc)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩), hm]
        exact Steps.next_tile (aX m c) (aWq m c) (aBq m c) (aWk m c) (aBk m c) (aWv m c) (aBv m c) (batchOf ⟨n + 1, h⟩) (grid0.coords ⟨n + 1, h⟩) (n % 16) hk
          ((tile_coord ⟨n + 1, h⟩).trans hm)
          (iblk m c 0 ⟨n + 1, h⟩) (iblk m c 3 ⟨n + 1, h⟩) (iblk m c 4 ⟨n + 1, h⟩) (iblk m c 5 ⟨n + 1, h⟩) (iblk m c 6 ⟨n + 1, h⟩)
          _ _
          (iblk0_apply m c ⟨n + 1, h⟩) (iblk3_apply m c ⟨n + 1, h⟩) (iblk4_apply m c ⟨n + 1, h⟩)
          (iblk5_apply m c ⟨n + 1, h⟩) (iblk6_apply m c ⟨n + 1, h⟩) ihq iho q d

end Cert.KernelIdeal.Invariant

end
-- ==== Proof.Final.lean ====
/-
  From the blocks to the result array.

  The grid has 64 points, point `t` being batch `t / 16` and key tile `t % 16`.  The result's window is the
  `[1, 4096, 512]` slab of batch `t / 16`, and it is written back to the array at the last key tile of each batch
  only.  Given that after every point the window's buffer holds the running sum over the key tiles seen so far,
  what is written back at the last tile of batch `b` is the whole sum over the key rows, that is slab `b` of the
  specification's array; the four slabs tile the result, so the array ends holding the specification.
-/
import proofs.«121356_j10720238370834_2_alg».proof.Proof.Gen.KernelIdeal.Value
import proofs.«121356_j10720238370834_2_alg».proof.Proof.Blocks
import proofs.«121356_j10720238370834_2_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.Blocks Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The running sum of batch `batchOf t` after key tile `t % 16`, at the launch contents of the seven arguments. -/
abbrev accAt (c : Dev nD) (t : Fin cfg0.N) (q : Fin 4096) (d : Fin 512) : EReal :=
  Cert.Spec.accOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batchOf t) (t.val % 16) q d

/-- The specification at the launch contents of the seven arguments. -/
abbrev GV (c : Dev nD) : S4x4096x512.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- At the last key tile of a batch the running sum is the whole sum: slab `batchOf t` of the specification. -/
theorem accAt_last (c : Dev nD) (t : Fin cfg0.N) (h15 : t.val % 16 = 15) (q : Fin 4096) (d : Fin 512) :
    accAt m c t q d = GV m c (ix3 (batchOf t) q d) := by
  show Cert.Spec.accOut _ _ _ _ _ _ _ (batchOf t) (t.val % 16) q d = _
  rw [h15]
  exact Cert.Spec.accOut_last _ _ _ _ _ _ _ (batchOf t) q d

/-- WHAT A WRITING POINT `t` WRITES BACK is block `t` of the specification's array, given what the window's buffer
    holds after each point. -/
theorem flushed_eq (c : Dev nD)
    (hinv : ∀ (t : Fin cfg0.N) (q : Fin 4096) (d : Fin 512), (outsAt0 m c t.val t.isLt).1 (ix3 (0 : Fin 1) q d) = accAt m c t q d)
    (t : Fin cfg0.N) (hf : (cfg0.win 7).flush t = true) :
    (dats m 0 c).flushed 7 t = ((cfg0.win 7).blk t).view.read (Elt Ideal) (GV m c) := by
  have h15 : t.val % 16 = 15 := (flush0_7 t).mp hf
  obtain ⟨-, -, -, e3, e4, e5, -⟩ := idx_facts t
  rw [Value.flushed7]
  refine funext fun (y : S1x4096x512.Idx) => ?_
  obtain ⟨a, q, d, rfl⟩ : ∃ (a : Fin 1) (q : Fin 4096) (d : Fin 512), y = ix3 a q d := ⟨y 0, y 1, y 2, eq_ix3 y⟩
  obtain rfl : a = 0 := Subsingleton.elim _ _
  rw [View.read_apply]
  show (outsAt0 m c t.val t.isLt).1 (ix3 (0 : Fin 1) q d) = GV m c (((cfg0.win 7).blk t).view.emb (ix3 (0 : Fin 1) q d))
  have eR : ((cfg0.win 7).blk t).view.emb (ix3 (0 : Fin 1) q d) = ix3 (batchOf t) q d := by
    funext a
    apply Fin.ext
    match a with
    | ⟨0, _⟩ => show win0_7.index t (0 : Fin 3) * 1 + 1 * 0 = t.val / 16; omega
    | ⟨1, _⟩ => show win0_7.index t (1 : Fin 3) * 4096 + 1 * q.val = q.val; omega
    | ⟨2, _⟩ => show win0_7.index t (2 : Fin 3) * 512 + 1 * d.val = d.val; omega
  rw [eR, hinv t q d]
  exact accAt_last m c t h15 q d

/-- An index of the result is in point `t`'s block iff each coordinate is in the block's range on its axis. -/
theorem mem_blk (t : Fin cfg0.N) (i : S4x4096x512.Idx) :
    i ∈ ((cfg0.win 7).blk t).view.set ↔ ∀ a : Fin 3, win0_7.index t a * S1x4096x512.size a ≤ (i a).val ∧ (i a).val < win0_7.index t a * S1x4096x512.size a + S1x4096x512.size a := by
  show i ∈ ((View.whole main_v6).slice (win0_7.rect t)).set ↔ _
  rw [View.set_slice_whole, Rect.mem_set_unit]
  exact Iff.rfl

/-- Every index of the result is in the block of a writing point: the last key tile of its batch. -/
theorem cover (i : S4x4096x512.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 512 := (i 2).isLt
  have hN : cfg0.N = 64 := N_0
  obtain ⟨t, ht⟩ : ∃ t : Fin cfg0.N, t.val = 16 * (i 0).val + 15 := ⟨⟨16 * (i 0).val + 15, by omega⟩, rfl⟩
  obtain ⟨-, -, -, e3, e4, e5, -⟩ := idx_facts t
  refine ⟨t, (flush0_7 t).mpr (by omega), ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 512 ≤ (i 2).val ∧ (i 2).val < win0_7.index t (2 : Fin 3) * 512 + 512; omega

/-- THE RESULT ARRAY after the run is the specification's, given what the window's buffer holds after each point. -/
theorem final7 (c : Dev nD)
    (hinv : ∀ (t : Fin cfg0.N) (q : Fin 4096) (d : Fin 512), (outsAt0 m c t.val t.isLt).1 (ix3 (0 : Fin 1) q d) = accAt m c t q d) :
    (dats m 0 c).arrAt 7 cfg0.N = GV m c :=
  (dats m 0 c).arrAt_eq_of_cover 7 (GV m c) (fun t hf => flushed_eq m c hinv t hf) cover

/-- The frame run re-posted: the result array at the specification of the arguments, the arguments unchanged. -/
theorem run (hinv : ∀ (c : Dev nD) (t : Fin cfg0.N) (q : Fin 4096) (d : Fin 512), (outsAt0 m c t.val t.isLt).1 (ix3 (0 : Fin 1) q d) = accAt m c t q d) :
    θ_run defs (onTc (τ := τ) (main (F := Ideal))) ⟨m, fun _ => 0, ρ⟩ fun r => ∀ c : Dev nD,
      r.2.mem ((c : Thread nD τ).loc main_v6) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c (hinv c)), (h c).2⟩)
    (Cert.KernelIdeal.Value.run_blocks m ρ)

end Cert.KernelIdeal.Final

end
-- ==== Proof.lean ====
/-
  The kernel — a fused attention whose softmax normalises over the QUERY axis — against its jnp reference, over
  the extended reals.

  Both programs compute, for every batch `b`, query row `q` and feature `d`,
      out[b, q, d] = ∑ₖ attn[b, k, q] · V[b, k, d],
  where `Q`, `K`, `V` are the three linear layers of the input, the score of key row `k` against query row
  `q` is the inner product `K[b, k] · Q[b, q]`, and `attn[b, k, ·]` is the softmax of key row `k`'s scores
  over the queries (shifted by their maximum): `Cert.Spec.G`.

  The reference does this with whole-array operations.  The kernel walks a 4 × 16 grid: at the first of a
  batch's 16 points it projects all 4096 query rows into a scratch and zeroes its output block; at every point it
  projects one tile of 256 key and value rows, takes that tile's softmax against ALL the queries — which is
  complete within the tile, because a key row's weights depend on no other key row — and adds the tile's
  `attnᵀ · V` into the output block, which is written back after the batch's last point.  So the kernel's
  result is the sum over the key rows regrouped into 16 tiles of 256, the reference's the same sum in one
  piece: equal by associativity and commutativity of addition (and commutativity of the product inside the
  scores), which hold on all of the extended reals; the precondition is not used by the value claim.

  The modules: `Spec` (the function and the regrouping law), `RefValue` (the reference computes it),
  `Payloads` with `Matmuls` and `Rows` (the kernel body's arithmetic at an index), `Pieces` (what each control
  case of the body leaves, as that arithmetic), `Blocks` (what the input windows hold), `Steps` and
  `Invariant` (the running sum after every grid point), `Final` (the result array after the run).
-/
import proofs.«121356_j10720238370834_2_alg».proof.Defs
import proofs.«121356_j10720238370834_2_alg».proof.Proof.Gen.Kernel
import proofs.«121356_j10720238370834_2_alg».proof.Proof.Gen.Kernel.Skeleton
import proofs.«121356_j10720238370834_2_alg».proof.Proof.Gen.Kernel.Launch
import proofs.«121356_j10720238370834_2_alg».proof.Proof.Gen.Kernel.Points
import proofs.«121356_j10720238370834_2_alg».proof.Proof.Gen.Kernel.Frame
import proofs.«121356_j10720238370834_2_alg».proof.Proof.Gen.KernelIdeal
import proofs.«121356_j10720238370834_2_alg».proof.Proof.Gen.KernelIdeal.Skeleton
import proofs.«121356_j10720238370834_2_alg».proof.Proof.Gen.KernelIdeal.Launch
import proofs.«121356_j10720238370834_2_alg».proof.Proof.Gen.KernelIdeal.Points
import proofs.«121356_j10720238370834_2_alg».proof.Proof.Gen.KernelIdeal.Frame
import proofs.«121356_j10720238370834_2_alg».proof.Proof.Gen.ReferenceIdeal
import proofs.«121356_j10720238370834_2_alg».proof.Proof.Gen.Pre_finite_inputs
import proofs.«121356_j10720238370834_2_alg».proof.Proof.Gen.KernelIdeal.Value
import proofs.«121356_j10720238370834_2_alg».proof.Proof.Gen.ReferenceIdeal.Run
import proofs.«121356_j10720238370834_2_alg».proof.Proof.Gen.ReferenceIdeal.Read
import proofs.«121356_j10720238370834_2_alg».proof.Proof.RefValue
import proofs.«121356_j10720238370834_2_alg».proof.Proof.Invariant
import proofs.«121356_j10720238370834_2_alg».proof.Proof.Final
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- The kernel's result array ends at `Spec.G` of its arguments (the running sum after every point, then the
    write-backs), the reference's at `Spec.G` of arguments that agree. -/
theorem algebraic : Cert.algebraic_KernelIdeal_ReferenceIdeal := by
  intro m ρ m' ρ' _ hagree
  refine ⟨fun c => Cert.KernelIdeal.Final.GV m c,
    Cert.KernelIdeal.Final.run m ρ (fun c t q d => (Cert.KernelIdeal.Invariant.holds m c t.val t.isLt).2 q d), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
